-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v42_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1024 .f32) (main_arg8 : FVec F S512x1024 .f32) (main_arg9 : FVec F S512 .f32) (main_arg10 : FVec F S1x512 .f32) (main_arg11 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_v48 main_v49 main_v50

def fn_part1 {F : FTy → Type} [FloatOps F] (main_arg4 : FVec F S512x512 .f32) (main_arg5 : FVec F S512 .f32) (main_arg6 : FVec F S1024x512 .f32) (main_arg7 : FVec F S1024 .f32) (main_arg8 : FVec F S512x1024 .f32) (main_arg9 : FVec F S512 .f32) (main_arg10 : FVec F S1x512 .f32) (main_arg11 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x512 .f32) (main_arg1 : FVec F S64x1024x1024 .f32) (main_arg2 : FVec F S512x512 .f32) (main_arg3 : FVec F S512 .f32) (main_arg4 : FVec F S512x512 .f32) (main_arg5 : FVec F S512 .f32) (main_arg6 : FVec F S1024x512 .f32) (main_arg7 : FVec F S1024 .f32) (main_arg8 : FVec F S512x1024 .f32) (main_arg9 : FVec F S512 .f32) (main_arg10 : FVec F S1x512 .f32) (main_arg11 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S64x1024 : Shape := ⟨2, ![64, 1024]⟩
abbrev S1x1024 : Shape := ⟨2, ![1, 1024]⟩
abbrev S512x1 : Shape := ⟨2, ![512, 1]⟩
abbrev S64x1 : Shape := ⟨2, ![64, 1]⟩
abbrev S1x1 : Shape := ⟨2, ![1, 1]⟩
abbrev S_ : Shape := ⟨0, ![]⟩
abbrev S64x1023 : Shape := ⟨2, ![64, 1023]⟩
abbrev S64x1x1024 : Shape := ⟨3, ![64, 1, 1024]⟩
abbrev S64x1x1 : Shape := ⟨3, ![64, 1, 1]⟩
abbrev S1x1x1024 : Shape := ⟨3, ![1, 1, 1024]⟩
abbrev S1x1x1 : Shape := ⟨3, ![1, 1, 1]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 76
  | .vmem => 14
  | .smem => 0
  | _ => 0

abbrev bufTy : (tb : Table) → Fin (tcTables nBuf tb) → BufTy
  | .hbm, ⟨0, _⟩ => ⟨S64x512, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S512x512, .f32⟩
  | .hbm, ⟨13, _⟩ => ⟨S64x512, .f32⟩
  | .hbm, ⟨14, _⟩ => ⟨S1x512, .f32⟩
  | .hbm, ⟨15, _⟩ => ⟨S64x512, .f32⟩
  | .hbm, ⟨16, _⟩ => ⟨S64x512, .f32⟩
  | .hbm, ⟨17, _⟩ => ⟨S512x512, .f32⟩
  | .hbm, ⟨18, _⟩ => ⟨S64x512, .f32⟩
  | .hbm, ⟨19, _⟩ => ⟨S1x512, .f32⟩
  | .hbm, ⟨20, _⟩ => ⟨S64x512, .f32⟩
  | .hbm, ⟨21, _⟩ => ⟨S64x512, .f32⟩
  | .hbm, ⟨22, _⟩ => ⟨S512x1024, .f32⟩
  | .hbm, ⟨23, _⟩ => ⟨S64x1024, .f32⟩
  | .hbm, ⟨24, _⟩ => ⟨S1x1024, .f32⟩
  | .hbm, ⟨25, _⟩ => ⟨S64x1024, .f32⟩
  | .hbm, ⟨26, _⟩ => ⟨S64x1024, .f32⟩
  | .hbm, ⟨27, _⟩ => ⟨S512x1, .f32⟩
  | .hbm, ⟨28, _⟩ => ⟨S64x1, .f32⟩
  | .hbm, ⟨29, _⟩ => ⟨S1x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S64x1024, .f32⟩
  | .hbm, ⟨48, _⟩ => ⟨S64x1, .f32⟩
  | .hbm, ⟨49, _⟩ => ⟨S64x1023, .f32⟩
  | .hbm, ⟨50, _⟩ => ⟨S64x1024, .f32⟩
  | .hbm, ⟨51, _⟩ => ⟨S64x1024, .f32⟩
  | .hbm, ⟨52, _⟩ => ⟨S_, .f32⟩
  | .hbm, ⟨53, _⟩ => ⟨S64x512, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x1024, .f32⟩
  | .hbm, ⟨60, _⟩ => ⟨S64x1, .f32⟩
  | .hbm, ⟨61, _⟩ => ⟨S64x1023, .f32⟩
  | .hbm, ⟨62, _⟩ => ⟨S64x1024, .f32⟩
  | .hbm, ⟨63, _⟩ => ⟨S64x1024, .f32⟩
  | .hbm, ⟨64, _⟩ => ⟨S64x1x1024, .f32⟩
  | .hbm, ⟨65, _⟩ => ⟨S64x1x1024, .f32⟩
  | .hbm, ⟨66, _⟩ => ⟨S64x1x1024, .f32⟩
  | .hbm, ⟨67, _⟩ => ⟨S64x1x1, .f32⟩
  | .hbm, ⟨68, _⟩ => ⟨S64x1024x1024, .f32⟩
  | .hbm, ⟨69, _⟩ => ⟨S64x1x1024, .f32⟩
  | .hbm, ⟨70, _⟩ => ⟨S64x1024, .f32⟩
  | .hbm, ⟨71, _⟩ => ⟨S1024x512, .f32⟩
  | .hbm, ⟨72, _⟩ => ⟨S64x512, .f32⟩
  | .hbm, ⟨73, _⟩ => ⟨S1x512, .f32⟩
  | .hbm, ⟨74, _⟩ => ⟨S64x512, .f32⟩
  | .hbm, ⟨75, _⟩ => ⟨S64x512, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1, .f32⟩
  | .local _ .vmem, ⟨7, _⟩ => ⟨S1x1x1, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_call3_cst : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_call4_cst : Ref sig .tc := ⟨.hbm, 56, rfl⟩
abbrev main_call4_v0 : Ref sig .tc := ⟨.hbm, 57, rfl⟩
abbrev main_v34 : Ref sig .tc := ⟨.hbm, 58, rfl⟩
abbrev main_v35 : Ref sig .tc := ⟨.hbm, 59, rfl⟩
abbrev main_call5_v0 : Ref sig .tc := ⟨.hbm, 60, rfl⟩
abbrev main_call5_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S_S64x512 : S_.BroadcastsInDim S64x512 (![] : Fin 0 → Fin S64x512.rank)
  concatenates_S64x512_S64x512_S64x1024_d1 : Shape.Concatenates [S64x512, S64x512] S64x1024 1
  slices_S64x1024_S64x1_0_1023 : S64x1024.Slices ![0, 1023] S64x1
  slices_S64x1024_S64x1023_0_0 : S64x1024.Slices ![0, 0] S64x1023
  concatenates_S64x1_S64x1023_S64x1024_d1 : Shape.Concatenates [S64x1, S64x1023] S64x1024 1
  shapeCasts_S64x1024_S64x1x1024 : S64x1024.ShapeCasts S64x1x1024
  shapeCasts_S64x1_S64x1x1 : S64x1.ShapeCasts S64x1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1x1024 : S1x1.Broadcasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1024x1024_S1024_2 : S1024x1024.Reduces [1] S1024
  shapeCasts_S1024_S1024x1 : S1024.ShapeCasts S1024x1
  transposes_S1024x1_p1_0_S1x1024 : S1024x1.Transposes [1, 0] S1x1024
  shapeCasts_S1x1024_S1x1x1024 : S1x1024.ShapeCasts S1x1x1024
  shapeCasts_S64x1x1024_S64x1024 : S64x1x1024.ShapeCasts S64x1024
  transposes_S512x1024_S1024x512_1_0 : S512x1024.Transposes [1, 0] S1024x512
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  dot_S64x512_S512x1_S64x1_1_0_0_1_n_n_wf : DotDims.WF S64x512 S512x1 S64x1 [1] [0] [0] [1] [] []
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S64x1x1024.size a
  hwx0_0 : ∀ i : grid0.Coords, EltTy.bits .f32 = 32 ∨ (Rect.block (s := S64x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S64x1024x1024.size a
  hwx0_4 : ∀ i : grid0.Coords, EltTy.bits .f32 = 32 ∨ (Rect.block (s := S64x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S64x1x1024.size a
  hwx0_6 : ∀ i : grid0.Coords, EltTy.bits .f32 = 32 ∨ (Rect.block (s := S64x1x1024) S1x1x1024.size (cc0_transform_6 i) (hinb0_6 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_v38) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42_0) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where
  halias0_5 : Pipeline.Aliased win0 4 5

variable [Facts]
-- ==== ReferenceIdeal.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S64x1024 : Shape := ⟨2, ![64, 1024]⟩
abbrev S1x1024 : Shape := ⟨2, ![1, 1024]⟩
abbrev S512x1 : Shape := ⟨2, ![512, 1]⟩
abbrev S64x1 : Shape := ⟨2, ![64, 1]⟩
abbrev S1x1 : Shape := ⟨2, ![1, 1]⟩
abbrev S_ : Shape := ⟨0, ![]⟩
abbrev S64x1023 : Shape := ⟨2, ![64, 1023]⟩
abbrev S64x1024x1 : Shape := ⟨3, ![64, 1024, 1]⟩
abbrev S64x1x1024 : Shape := ⟨3, ![64, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S512x512, .f32⟩
  | .hbm, ⟨13, _⟩ => ⟨S64x512, .f32⟩
  | .hbm, ⟨14, _⟩ => ⟨S1x512, .f32⟩
  | .hbm, ⟨15, _⟩ => ⟨S64x512, .f32⟩
  | .hbm, ⟨16, _⟩ => ⟨S64x512, .f32⟩
  | .hbm, ⟨17, _⟩ => ⟨S512x512, .f32⟩
  | .hbm, ⟨18, _⟩ => ⟨S64x512, .f32⟩
  | .hbm, ⟨19, _⟩ => ⟨S1x512, .f32⟩
  | .hbm, ⟨20, _⟩ => ⟨S64x512, .f32⟩
  | .hbm, ⟨21, _⟩ => ⟨S64x512, .f32⟩
  | .hbm, ⟨22, _⟩ => ⟨S512x1024, .f32⟩
  | .hbm, ⟨23, _⟩ => ⟨S64x1024, .f32⟩
  | .hbm, ⟨24, _⟩ => ⟨S1x1024, .f32⟩
  | .hbm, ⟨25, _⟩ => ⟨S64x1024, .f32⟩
  | .hbm, ⟨26, _⟩ => ⟨S64x1024, .f32⟩
  | .hbm, ⟨27, _⟩ => ⟨S512x1, .f32⟩
  | .hbm, ⟨28, _⟩ => ⟨S64x1, .f32⟩
  | .hbm, ⟨29, _⟩ => ⟨S1x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S64x1024, .f32⟩
  | .hbm, ⟨48, _⟩ => ⟨S64x1, .f32⟩
  | .hbm, ⟨49, _⟩ => ⟨S64x1023, .f32⟩
  | .hbm, ⟨50, _⟩ => ⟨S64x1024, .f32⟩
  | .hbm, ⟨51, _⟩ => ⟨S64x1024, .f32⟩
  | .hbm, ⟨52, _⟩ => ⟨S_, .f32⟩
  | .hbm, ⟨53, _⟩ => ⟨S64x1024, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024x1, .f32⟩
  | .hbm, ⟨59, _⟩ => ⟨S64x1x1024, .f32⟩
  | .hbm, ⟨60, _⟩ => ⟨S64x1024x1024, .f32⟩
  | .hbm, ⟨61, _⟩ => ⟨S64x1024x1024, .f32⟩
  | .hbm, ⟨62, _⟩ => ⟨S64x1024x1024, .f32⟩
  | .hbm, ⟨63, _⟩ => ⟨S64x1024x1024, .f32⟩
  | .hbm, ⟨64, _⟩ => ⟨S_, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S_, .f32⟩
  | .hbm, ⟨69, _⟩ => ⟨S64x512, .f32⟩
  | .hbm, ⟨70, _⟩ => ⟨S64x512, .f32⟩
  | .hbm, ⟨71, _⟩ => ⟨S64x1024, .f32⟩
  | .hbm, ⟨72, _⟩ => ⟨S64x1, .f32⟩
  | .hbm, ⟨73, _⟩ => ⟨S64x1023, .f32⟩
  | .hbm, ⟨74, _⟩ => ⟨S64x1024, .f32⟩
  | .hbm, ⟨75, _⟩ => ⟨S64x1024, .f32⟩
  | .hbm, ⟨76, _⟩ => ⟨S_, .f32⟩
  | .hbm, ⟨77, _⟩ => ⟨S64x1024, .f32⟩
  | .hbm, ⟨78, _⟩ => ⟨S64x1024, .f32⟩
  | .hbm, ⟨79, _⟩ => ⟨S1024x512, .f32⟩
  | .hbm, ⟨80, _⟩ => ⟨S64x512, .f32⟩
  | .hbm, ⟨81, _⟩ => ⟨S1x512, .f32⟩
  | .hbm, ⟨82, _⟩ => ⟨S64x512, .f32⟩
  | .hbm, ⟨83, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call3_cst : Ref sig .tc := ⟨.hbm, 64, rfl⟩
abbrev main_call3_v0 : Ref sig .tc := ⟨.hbm, 65, rfl⟩
abbrev main_v43 : Ref sig .tc := ⟨.hbm, 66, rfl⟩
abbrev main_v44 : Ref sig .tc := ⟨.hbm, 67, rfl⟩
abbrev main_call4_cst : Ref sig .tc := ⟨.hbm, 68, rfl⟩
abbrev main_call4_v0 : Ref sig .tc := ⟨.hbm, 69, rfl⟩
abbrev main_v45 : Ref sig .tc := ⟨.hbm, 70, rfl⟩
abbrev main_v46 : Ref sig .tc := ⟨.hbm, 71, rfl⟩
abbrev main_call5_v0 : Ref sig .tc := ⟨.hbm, 72, rfl⟩
abbrev main_call5_v1 : Ref sig .tc := ⟨.hbm, 73, rfl⟩
abbrev main_v47 : Ref sig .tc := ⟨.hbm, 74, rfl⟩
abbrev main_v48 : Ref sig .tc := ⟨.hbm, 75, rfl⟩
abbrev main_cst_2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S_S64x512 : S_.BroadcastsInDim S64x512 (![] : Fin 0 → Fin S64x512.rank)
  concatenates_S64x512_S64x512_S64x1024_d1 : Shape.Concatenates [S64x512, S64x512] S64x1024 1
  slices_S64x1024_S64x1_0_1023 : S64x1024.Slices ![0, 1023] S64x1
  slices_S64x1024_S64x1023_0_0 : S64x1024.Slices ![0, 0] S64x1023
  concatenates_S64x1_S64x1023_S64x1024_d1 : Shape.Concatenates [S64x1, S64x1023] S64x1024 1
  reducesTo_S64x1024x1024_S64x1024_d1 : S64x1024x1024.ReducesTo [1] S64x1024
  h_S_ : 0 < S_.numel
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  transposes_S512x1024_S1024x512_1_0 : S512x1024.Transposes [1, 0] S1024x512
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  dot_S64x512_S512x1_S64x1_1_0_0_1_n_n_wf : DotDims.WF S64x512 S512x1 S64x1 [1] [0] [0] [1] [] []
  dot_S64x1024_S1024x512_S64x512_1_0_0_1_n_n_wf : DotDims.WF S64x1024 S1024x512 S64x512 [1] [0] [0] [1] [] []

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

class Facts : Prop extends Facts₀ where

variable [Facts]
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.Payload.lean ====
/-
  The kernel body's arithmetic, read at an index.

  At one grid point the body holds one batch entry's state block w : [1, 1024, 1024] and the entry's row vectors
  kp, qp, v : [1, 1, 1024] and strength beta : [1, 1, 1]. It forms the column sums of w, the write strength
  d[i] = beta · (v[i] − colsum[i] · kp[i]) as a row, turns that row into a column, and stores
  w[i, j] + d[i] · kp[j]; then it sums the stored block along its rows, turns the column of sums back into a row and
  stores qp[i] · rowsum[i]. Every reshaping step keeps the row-major position, a transpose of a one-row or one-column
  matrix swaps its two coordinates, and a broadcast re-reads the one entry it repeats; the two reductions are finite
  sums over the dropped axis.
-/
import proofs.«154370_j68539088109957_2_alg».proof.Proof.Gen.KernelIdeal.Skeleton
import proofs.«154370_j68539088109957_2_alg».proof.Proof.LibKeepdimsLayout
import proofs.«154370_j68539088109957_2_alg».proof.Proof.LibColSum
import proofs.«154370_j68539088109957_2_alg».proof.Proof.LibRowSum
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.LayoutKeepdims Idealize.ShloMosaic.ColSum Idealize.ShloMosaic.RowSum

/-- One block's write strength at row `i`: beta · (v[i] − (Σ_k w[k, i]) · kp[i]). -/
def blkStrength (w : Vec Ideal S1x1024x1024 .f32) (kp v : Vec Ideal S1x1x1024 .f32) (beta : Vec Ideal S1x1x1 .f32)
    (i : Fin 1024) : EReal :=
  beta (ix3 (0 : Fin 1) (0 : Fin 1) (0 : Fin 1))
    * (v (ix3 (0 : Fin 1) (0 : Fin 1) i) - (∑ k : Fin 1024, w (ix3 (0 : Fin 1) k i)) * kp (ix3 (0 : Fin 1) (0 : Fin 1) i))

/-- One block's updated entry at (i, j): w[i, j] + strength[i] · kp[j]. -/
def blkUpdated (w : Vec Ideal S1x1024x1024 .f32) (kp v : Vec Ideal S1x1x1024 .f32) (beta : Vec Ideal S1x1x1 .f32)
    (i j : Fin 1024) : EReal :=
  w (ix3 (0 : Fin 1) i j) + blkStrength w kp v beta i * kp (ix3 (0 : Fin 1) (0 : Fin 1) j)

/-- The updated block as a [1024, 1024] matrix, entry by entry. -/
theorem updated_apply (w : Vec Ideal S1x1024x1024 .f32) (kp v : Vec Ideal S1x1x1024 .f32) (beta : Vec Ideal S1x1x1 .f32)
    (i j : Fin 1024) :
    k0_pay1 (F := Ideal) w kp v beta (ix2 i j) = blkUpdated w kp v beta i j := by
  unfold k0_pay1 blkUpdated blkStrength
  simp only [addf_apply, mulf_apply, subf_apply, shapeCast_1ab_ab_apply, broadcastTo_a1_ab_apply, broadcastTo_1b_ab_apply]
  rw [transpose_ix2_apply]
  simp only [mulf_apply, subf_apply, broadcastTo_a1_ab_apply, shapeCast_1ab_ab_apply, shapeCast_a_1a_apply]
  rw [colSum_apply]
  simp only [shapeCast_1ab_ab_apply]

/-- The stored state block, with its leading unit axis back. -/
theorem stored_apply (w : Vec Ideal S1x1024x1024 .f32) (kp v : Vec Ideal S1x1x1024 .f32) (beta : Vec Ideal S1x1x1 .f32)
    (u : Fin 1) (i j : Fin 1024) :
    k0_pay2 (F := Ideal) w kp v beta (ix3 u i j) = blkUpdated w kp v beta i j := by
  unfold k0_pay2
  exact (shapeCast_ab_1ab_apply _ _ u i j).trans (updated_apply w kp v beta i j)

/-- The stored read-out row at `i`: qp[i] · Σ_j updated[i, j]. -/
theorem readout_apply (w : Vec Ideal S1x1024x1024 .f32) (kp qp v : Vec Ideal S1x1x1024 .f32) (beta : Vec Ideal S1x1x1 .f32)
    (u u' : Fin 1) (i : Fin 1024) :
    k0_pay3 (F := Ideal) w kp qp v beta (ix3 u u' i)
      = qp (ix3 (0 : Fin 1) (0 : Fin 1) i) * ∑ j : Fin 1024, blkUpdated w kp v beta i j := by
  obtain rfl : u' = (0 : Fin 1) := Subsingleton.elim _ _
  unfold k0_pay3
  simp only [shapeCast_ab_1ab_apply, mulf_apply, shapeCast_1ab_ab_apply]
  rw [transpose_ix2_apply]
  simp only [shapeCast_a_a1_apply]
  rw [rowSum_apply]
  simp only [updated_apply]

end Cert.KernelIdeal.Body

end
-- ==== Proof.Spec.lean ====
/-
  The delta-rule fast-weight update, as functions of index.

  For each batch entry b the state is a 1024 x 1024 matrix W[b]. With key features kp[b, ·], value v[b, ·], query
  features qp[b, ·] and write strength beta[b]:

    strength  d[b, i]  = beta[b] · (v[b, i] − (Σ_k W[b, k, i]) · kp[b, i])
    update    W'[b, i, j] = W[b, i, j] + d[b, i] · kp[b, j]
    read-out  r[b, i]  = qp[b, i] · Σ_j W'[b, i, j]

  All of it is over the extended reals; nothing here asks for finiteness, and the only law used later is that
  multiplication commutes.
-/
import Idealize.ShloMosaic.PureOps.Ideal
import Idealize.ShloMosaic.Lib.ValueIdx

noncomputable section

open scoped BigOperators

namespace Cert.FastWeight

open Idealize.ShloMosaic Idealize.ShloMosaic.ValueIdx

/-- The shapes: the state [64, 1024, 1024], a feature vector per batch entry [64, 1024], a strength per entry [64, 1]. -/
abbrev SW : Shape := ⟨3, ![64, 1024, 1024]⟩
abbrev SV : Shape := ⟨2, ![64, 1024]⟩
abbrev SB : Shape := ⟨2, ![64, 1]⟩

/-- The write strength of row `i` of batch entry `b`: beta[b] · (v[b, i] − (Σ_k W[b, k, i]) · kp[b, i]). -/
def strength (W : SW.Idx → EReal) (kp v : SV.Idx → EReal) (beta : SB.Idx → EReal) (b : Fin 64) (i : Fin 1024) : EReal :=
  beta (ix2 b (0 : Fin 1)) * (v (ix2 b i) - (∑ k : Fin 1024, W (ix3 b k i)) * kp (ix2 b i))

/-- The updated state at (b, i, j): W[b, i, j] + strength[b, i] · kp[b, j]. -/
def updatedAt (W : SW.Idx → EReal) (kp v : SV.Idx → EReal) (beta : SB.Idx → EReal) (b : Fin 64) (i j : Fin 1024) : EReal :=
  W (ix3 b i j) + strength W kp v beta b i * kp (ix2 b j)

/-- The updated state as an array. -/
def updated (W : SW.Idx → EReal) (kp v : SV.Idx → EReal) (beta : SB.Idx → EReal) : SW.Idx → EReal :=
  fun p => updatedAt W kp v beta (p 0) (p 1) (p 2)

/-- The read-out at (b, i): qp[b, i] · Σ_j W'[b, i, j]. -/
def readoutAt (W : SW.Idx → EReal) (kp qp v : SV.Idx → EReal) (beta : SB.Idx → EReal) (b : Fin 64) (i : Fin 1024) : EReal :=
  qp (ix2 b i) * ∑ j : Fin 1024, updatedAt W kp v beta b i j

/-- The read-out as an array. -/
def readout (W : SW.Idx → EReal) (kp qp v : SV.Idx → EReal) (beta : SB.Idx → EReal) : SV.Idx → EReal :=
  fun p => readoutAt W kp qp v beta (p 0) (p 1)

theorem updated_ix3 (W : SW.Idx → EReal) (kp v : SV.Idx → EReal) (beta : SB.Idx → EReal) (b : Fin 64) (i j : Fin 1024) :
    updated W kp v beta (ix3 b i j) = updatedAt W kp v beta b i j := rfl

theorem readout_ix2 (W : SW.Idx → EReal) (kp qp v : SV.Idx → EReal) (beta : SB.Idx → EReal) (b : Fin 64) (i : Fin 1024) :
    readout W kp qp v beta (ix2 b i) = readoutAt W kp qp v beta b i := rfl

end Cert.FastWeight

end
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.Blocks.lean ====
/-
  From the blocks the grid points write back to the two whole arrays.

  The grid has one point per batch entry: at point t every window's block is entry t of its array, whole in the other
  two axes (block index (t, 0, 0)). So the state block is W[t], the row blocks are row t of the key features, query
  features and values, and the strength block is entry t of the write strength; what the point writes back is the
  updated state's entry t and the read-out's row t. The 64 blocks tile both output arrays, so after the run each holds
  the specification's function at every index. The four projections enter only through the arrays the region finds,
  given here as hypotheses: each a [64, 1024] (or [64, 1]) array with a middle unit axis inserted.
-/
import proofs.«154370_j68539088109957_2_alg».proof.Proof.Gen.KernelIdeal.Frame
import proofs.«154370_j68539088109957_2_alg».proof.Proof.Payload
import proofs.«154370_j68539088109957_2_alg».proof.Proof.Spec
import proofs.«154370_j68539088109957_2_alg».proof.Proof.LibMiddleUnitAxis
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.FastWeight Cert.KernelIdeal.Body

variable (m : (ℓ : Loc nD τ sig) → Buf (Elt Ideal) ℓ)

theorem hz3 : (![0, 0, 0] : Fin 3 → Nat) = fun _ => 0 := funext fun a => by fin_cases a <;> rfl

/-- A grid point as a batch entry. -/
def entry (t : Fin cfg0.N) : Fin 64 := Fin.cast N_0 t

theorem entry_val (t : Fin cfg0.N) : (entry t).val = t.val := rfl

/-- The printed index maps, decided over the 64 points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## Each input block, read where the point's batch entry says -/

section Reads

variable (c : Dev nD) (t : Fin cfg0.N)

/-- The state block at point t is W[t]. -/
theorem read_state (u : Fin 1) (i j : Fin 1024) :
    iblk m c 4 t (ix3 u i j) = m ((c : Thread nD τ).loc main_arg1) (ix3 (entry t) i j) := by
  obtain ⟨e00, e01, e02, e10, e11, e12, e20, e21, e22, e30, e31, e32, e40, e41, e42, e50, e51, e52, e60, e61, e62⟩ := idx_facts t
  have hu := u.isLt
  show V m c main_arg1 (((cfg0.win 4).blk t).view.emb (ix3 u i j)) = _
  rw [V_main_arg1]
  refine congrArg (m ((c : Thread nD τ).loc main_arg1)) (funext fun a => Fin.ext ?_)
  match a with
  | ⟨0, _⟩ => show win0_4.index t (0 : Fin 3) * 1 + 1 * u.val = t.val; omega
  | ⟨1, _⟩ => show win0_4.index t (1 : Fin 3) * 1024 + 1 * i.val = i.val; omega
  | ⟨2, _⟩ => show win0_4.index t (2 : Fin 3) * 1024 + 1 * j.val = j.val; omega

variable (KP QP VV : S64x1024.Idx → EReal) (BETA : S64x1.Idx → EReal)

/-- The key block at point t is row t of the key features. -/
theorem read_keys (h0 : (V m c main_v38 : S64x1x1024.Idx → EReal) = shapeCast S64x1x1024 KP shapeCasts_S64x1024_S64x1x1024)
    (u u' : Fin 1) (j : Fin 1024) : iblk m c 0 t (ix3 u u' j) = KP (ix2 (entry t) j) := by
  obtain ⟨e00, e01, e02, e10, e11, e12, e20, e21, e22, e30, e31, e32, e40, e41, e42, e50, e51, e52, e60, e61, e62⟩ := idx_facts t
  have hu := u.isLt
  have hu' := u'.isLt
  show V m c main_v38 (((cfg0.win 0).blk t).view.emb (ix3 u u' j)) = _
  rw [h0]
  have e : ((cfg0.win 0).blk t).view.emb (ix3 u u' j) = ix3 (entry t) (0 : Fin 1) j := funext fun a => Fin.ext (by
    match a with
    | ⟨0, _⟩ => show win0_0.index t (0 : Fin 3) * 1 + 1 * u.val = t.val; omega
    | ⟨1, _⟩ => show win0_0.index t (1 : Fin 3) * 1 + 1 * u'.val = 0; omega
    | ⟨2, _⟩ => show win0_0.index t (2 : Fin 3) * 1024 + 1 * j.val = j.val; omega)
  rw [e]
  exact shapeCast_ab_a1b_apply KP _ (entry t) 0 j

/-- The query block at point t is row t of the query features. -/
theorem read_queries (h1 : (V m c main_v39 : S64x1x1024.Idx → EReal) = shapeCast S64x1x1024 QP shapeCasts_S64x1024_S64x1x1024)
    (u u' : Fin 1) (j : Fin 1024) : iblk m c 1 t (ix3 u u' j) = QP (ix2 (entry t) j) := by
  obtain ⟨e00, e01, e02, e10, e11, e12, e20, e21, e22, e30, e31, e32, e40, e41, e42, e50, e51, e52, e60, e61, e62⟩ := idx_facts t
  have hu := u.isLt
  have hu' := u'.isLt
  show V m c main_v39 (((cfg0.win 1).blk t).view.emb (ix3 u u' j)) = _
  rw [h1]
  have e : ((cfg0.win 1).blk t).view.emb (ix3 u u' j) = ix3 (entry t) (0 : Fin 1) j := funext fun a => Fin.ext (by
    match a with
    | ⟨0, _⟩ => show win0_1.index t (0 : Fin 3) * 1 + 1 * u.val = t.val; omega
    | ⟨1, _⟩ => show win0_1.index t (1 : Fin 3) * 1 + 1 * u'.val = 0; omega
    | ⟨2, _⟩ => show win0_1.index t (2 : Fin 3) * 1024 + 1 * j.val = j.val; omega)
  rw [e]
  exact shapeCast_ab_a1b_apply QP _ (entry t) 0 j

/-- The value block at point t is row t of the values. -/
theorem read_values (h2 : (V m c main_v40 : S64x1x1024.Idx → EReal) = shapeCast S64x1x1024 VV shapeCasts_S64x1024_S64x1x1024)
    (u u' : Fin 1) (j : Fin 1024) : iblk m c 2 t (ix3 u u' j) = VV (ix2 (entry t) j) := by
  obtain ⟨e00, e01, e02, e10, e11, e12, e20, e21, e22, e30, e31, e32, e40, e41, e42, e50, e51, e52, e60, e61, e62⟩ := idx_facts t
  have hu := u.isLt
  have hu' := u'.isLt
  show V m c main_v40 (((cfg0.win 2).blk t).view.emb (ix3 u u' j)) = _
  rw [h2]
  have e : ((cfg0.win 2).blk t).view.emb (ix3 u u' j) = ix3 (entry t) (0 : Fin 1) j := funext fun a => Fin.ext (by
    match a with
    | ⟨0, _⟩ => show win0_2.index t (0 : Fin 3) * 1 + 1 * u.val = t.val; omega
    | ⟨1, _⟩ => show win0_2.index t (1 : Fin 3) * 1 + 1 * u'.val = 0; omega
    | ⟨2, _⟩ => show win0_2.index t (2 : Fin 3) * 1024 + 1 * j.val = j.val; omega)
  rw [e]
  exact shapeCast_ab_a1b_apply VV _ (entry t) 0 j

/-- The strength block at point t is entry t of the write strength. -/
theorem read_gate (h3 : (V m c main_v41 : S64x1x1.Idx → EReal) = shapeCast S64x1x1 BETA shapeCasts_S64x1_S64x1x1)
    (u u' u'' : Fin 1) : iblk m c 3 t (ix3 u u' u'') = BETA (ix2 (entry t) (0 : Fin 1)) := by
  obtain ⟨e00, e01, e02, e10, e11, e12, e20, e21, e22, e30, e31, e32, e40, e41, e42, e50, e51, e52, e60, e61, e62⟩ := idx_facts t
  have hu := u.isLt
  have hu' := u'.isLt
  have hu'' := u''.isLt
  show V m c main_v41 (((cfg0.win 3).blk t).view.emb (ix3 u u' u'')) = _
  rw [h3]
  have e : ((cfg0.win 3).blk t).view.emb (ix3 u u' u'') = ix3 (entry t) (0 : Fin 1) (0 : Fin 1) := funext fun a => Fin.ext (by
    match a with
    | ⟨0, _⟩ => show win0_3.index t (0 : Fin 3) * 1 + 1 * u.val = t.val; omega
    | ⟨1, _⟩ => show win0_3.index t (1 : Fin 3) * 1 + 1 * u'.val = 0; omega
    | ⟨2, _⟩ => show win0_3.index t (2 : Fin 3) * 1 + 1 * u''.val = 0; omega)
  rw [e]
  exact shapeCast_ab_a1b_apply BETA _ (entry t) 0 0

end Reads

/-! ## What a point writes back, and the arrays after the run -/

section Arrays

variable (c : Dev nD) (KP QP VV : S64x1024.Idx → EReal) (BETA : S64x1.Idx → EReal)
  (h0 : (V m c main_v38 : S64x1x1024.Idx → EReal) = shapeCast S64x1x1024 KP shapeCasts_S64x1024_S64x1x1024)
  (h1 : (V m c main_v39 : S64x1x1024.Idx → EReal) = shapeCast S64x1x1024 QP shapeCasts_S64x1024_S64x1x1024)
  (h2 : (V m c main_v40 : S64x1x1024.Idx → EReal) = shapeCast S64x1x1024 VV shapeCasts_S64x1024_S64x1x1024)
  (h3 : (V m c main_v41 : S64x1x1.Idx → EReal) = shapeCast S64x1x1 BETA shapeCasts_S64x1_S64x1x1)

/-- The updated state of the launched W and the four projections. -/
abbrev newState : S64x1024x1024.Idx → EReal := updated (m ((c : Thread nD τ).loc main_arg1)) KP VV BETA

/-- The read-out, with the middle unit axis the kernel's second result carries. -/
abbrev newRead : S64x1x1024.Idx → EReal :=
  fun p => readoutAt (m ((c : Thread nD τ).loc main_arg1)) KP QP VV BETA (p 0) (p 2)

include h0 h2 h3 in
/-- One block's updated entry is the specification's at the point's batch entry. -/
theorem blk_updated (t : Fin cfg0.N) (i j : Fin 1024) :
    blkUpdated (iblk m c 4 t) (iblk m c 0 t) (iblk m c 2 t) (iblk m c 3 t) i j
      = updatedAt (m ((c : Thread nD τ).loc main_arg1)) KP VV BETA (entry t) i j := by
  unfold blkUpdated blkStrength updatedAt strength
  rw [read_state m c t 0 i j, read_keys m c t KP h0 0 0 j, read_keys m c t KP h0 0 0 i, read_values m c t VV h2 0 0 i,
    read_gate m c t BETA h3 0 0 0]
  exact congrArg (fun s => _ + BETA (ix2 (entry t) (0 : Fin 1)) * (VV (ix2 (entry t) i) - s * KP (ix2 (entry t) i)) * KP (ix2 (entry t) j))
    (Finset.sum_congr rfl fun k _ => read_state m c t 0 k i)

include h0 h2 h3 in
/-- WHAT POINT t WRITES BACK to the state's array is block t of the updated state. -/
theorem flushed_state (t : Fin cfg0.N) :
    (dats m 0 c).flushed 5 t = ((cfg0.win 5).blk t).view.read (Elt Ideal) (newState m c KP VV BETA) := by
  obtain ⟨e00, e01, e02, e10, e11, e12, e20, e21, e22, e30, e31, e32, e40, e41, e42, e50, e51, e52, e60, e61, e62⟩ := idx_facts t
  show (cfg0.win 5).cut (grid0.coords t) ((dats m 0 c).after 5 t) = _
  rw [after0_5]
  unfold out0_5
  rw [View.canon_unit_zero hz3]
  simp only [View.ld_unit_zero (S := S1x1024x1024) hz3, View.ld_unit_zero (S := S1x1x1024) hz3, View.ld_unit_zero (S := S1x1x1) hz3]
  funext y
  obtain ⟨u, i, j, rfl⟩ : ∃ (u : Fin 1) (i j : Fin 1024), y = ix3 u i j := ⟨y 0, y 1, y 2, eq_ix3 y⟩
  have hu := u.isLt
  refine (stored_apply (iblk m c 4 t) (iblk m c 0 t) (iblk m c 2 t) (iblk m c 3 t) u i j).trans ?_
  refine (blk_updated m c KP VV BETA h0 h2 h3 t i j).trans ?_
  show _ = updated (m ((c : Thread nD τ).loc main_arg1)) KP VV BETA (((cfg0.win 5).blk t).view.emb (ix3 u i j))
  have e : ((cfg0.win 5).blk t).view.emb (ix3 u i j) = ix3 (entry t) i j := funext fun a => Fin.ext (by
    match a with
    | ⟨0, _⟩ => show win0_5.index t (0 : Fin 3) * 1 + 1 * u.val = t.val; omega
    | ⟨1, _⟩ => show win0_5.index t (1 : Fin 3) * 1024 + 1 * i.val = i.val; omega
    | ⟨2, _⟩ => show win0_5.index t (2 : Fin 3) * 1024 + 1 * j.val = j.val; omega)
  rw [e, updated_ix3]

include h0 h1 h2 h3 in
/-- WHAT POINT t WRITES BACK to the read-out's array is row t of the read-out. -/
theorem flushed_read (t : Fin cfg0.N) :
    (dats m 0 c).flushed 6 t = ((cfg0.win 6).blk t).view.read (Elt Ideal) (newRead m c KP QP VV BETA) := by
  obtain ⟨e00, e01, e02, e10, e11, e12, e20, e21, e22, e30, e31, e32, e40, e41, e42, e50, e51, e52, e60, e61, e62⟩ := idx_facts t
  show (cfg0.win 6).cut (grid0.coords t) ((dats m 0 c).after 6 t) = _
  rw [after0_6]
  unfold out0_6
  rw [View.canon_unit_zero hz3]
  simp only [View.ld_unit_zero (S := S1x1024x1024) hz3, View.ld_unit_zero (S := S1x1x1024) hz3, View.ld_unit_zero (S := S1x1x1) hz3]
  funext y
  obtain ⟨u, u', i, rfl⟩ : ∃ (u u' : Fin 1) (i : Fin 1024), y = ix3 u u' i := ⟨y 0, y 1, y 2, eq_ix3 y⟩
  have hu := u.isLt
  have hu' := u'.isLt
  refine (readout_apply (iblk m c 4 t) (iblk m c 0 t) (iblk m c 1 t) (iblk m c 2 t) (iblk m c 3 t) u u' i).trans ?_
  rw [read_queries m c t QP h1 0 0 i]
  show _ = newRead m c KP QP VV BETA (((cfg0.win 6).blk t).view.emb (ix3 u u' i))
  have e : ((cfg0.win 6).blk t).view.emb (ix3 u u' i) = ix3 (entry t) (0 : Fin 1) i := funext fun a => Fin.ext (by
    match a with
    | ⟨0, _⟩ => show win0_6.index t (0 : Fin 3) * 1 + 1 * u.val = t.val; omega
    | ⟨1, _⟩ => show win0_6.index t (1 : Fin 3) * 1 + 1 * u'.val = 0; omega
    | ⟨2, _⟩ => show win0_6.index t (2 : Fin 3) * 1024 + 1 * i.val = i.val; omega)
  rw [e]
  show _ = QP (ix2 (entry t) i) * ∑ j : Fin 1024, updatedAt (m ((c : Thread nD τ).loc main_arg1)) KP VV BETA (entry t) i j
  exact congrArg (QP (ix2 (entry t) i) * ·) (Finset.sum_congr rfl fun j _ => blk_updated m c KP VV BETA h0 h2 h3 t i j)

/-- An index of the state's array is in point t's block iff each coordinate is in the block's range on its axis. -/
theorem mem_state_blk (t : Fin cfg0.N) (p : S64x1024x1024.Idx) :
    p ∈ ((cfg0.win 5).blk t).view.set ↔ ∀ a : Fin 3, win0_5.index t a * S1x1024x1024.size a ≤ (p a).val
      ∧ (p a).val < win0_5.index t a * S1x1024x1024.size a + S1x1024x1024.size a := by
  show p ∈ ((View.whole main_v42_0).slice (win0_5.rect t)).set ↔ _
  rw [View.set_slice_whole, Rect.mem_set_unit]
  exact Iff.rfl

/-- An index of the read-out's array is in point t's block iff each coordinate is in the block's range on its axis. -/
theorem mem_read_blk (t : Fin cfg0.N) (p : S64x1x1024.Idx) :
    p ∈ ((cfg0.win 6).blk t).view.set ↔ ∀ a : Fin 3, win0_6.index t a * S1x1x1024.size a ≤ (p a).val
      ∧ (p a).val < win0_6.index t a * S1x1x1024.size a + S1x1x1024.size a := by
  show p ∈ ((View.whole main_v42_1).slice (win0_6.rect t)).set ↔ _
  rw [View.set_slice_whole, Rect.mem_set_unit]
  exact Iff.rfl

/-- The point of a batch entry. -/
def pointOf (b : Fin 64) : Fin cfg0.N := Fin.cast N_0.symm b

theorem pointOf_val (b : Fin 64) : (pointOf b).val = b.val := rfl

/-- Every index of the state's array is in the block of the point of its batch entry. -/
theorem state_cover (p : S64x1024x1024.Idx) :
    ∃ t : Fin cfg0.N, (cfg0.win 5).flush t = true ∧ p ∈ ((cfg0.win 5).blk t).view.set := by
  refine ⟨pointOf (p 0), flush0_5 _, ?_⟩
  obtain ⟨e00, e01, e02, e10, e11, e12, e20, e21, e22, e30, e31, e32, e40, e41, e42, e50, e51, e52, e60, e61, e62⟩ := idx_facts (pointOf (p 0))
  have hv : (pointOf (p 0)).val = (p 0).val := rfl
  have h1 : (p 1).val < 1024 := (p 1).isLt
  have h2 : (p 2).val < 1024 := (p 2).isLt
  rw [mem_state_blk]
  intro a
  match a with
  | ⟨0, _⟩ => show win0_5.index (pointOf (p 0)) (0 : Fin 3) * 1 ≤ (p 0).val ∧ (p 0).val < win0_5.index (pointOf (p 0)) (0 : Fin 3) * 1 + 1; omega
  | ⟨1, _⟩ => show win0_5.index (pointOf (p 0)) (1 : Fin 3) * 1024 ≤ (p 1).val ∧ (p 1).val < win0_5.index (pointOf (p 0)) (1 : Fin 3) * 1024 + 1024; omega
  | ⟨2, _⟩ => show win0_5.index (pointOf (p 0)) (2 : Fin 3) * 1024 ≤ (p 2).val ∧ (p 2).val < win0_5.index (pointOf (p 0)) (2 : Fin 3) * 1024 + 1024; omega

/-- Every index of the read-out's array is in the block of the point of its batch entry. -/
theorem read_cover (p : S64x1x1024.Idx) :
    ∃ t : Fin cfg0.N, (cfg0.win 6).flush t = true ∧ p ∈ ((cfg0.win 6).blk t).view.set := by
  refine ⟨pointOf (p 0), flush0_6 _, ?_⟩
  obtain ⟨e00, e01, e02, e10, e11, e12, e20, e21, e22, e30, e31, e32, e40, e41, e42, e50, e51, e52, e60, e61, e62⟩ := idx_facts (pointOf (p 0))
  have hv : (pointOf (p 0)).val = (p 0).val := rfl
  have h1 : (p 1).val < 1 := (p 1).isLt
  have h2 : (p 2).val < 1024 := (p 2).isLt
  rw [mem_read_blk]
  intro a
  match a with
  | ⟨0, _⟩ => show win0_6.index (pointOf (p 0)) (0 : Fin 3) * 1 ≤ (p 0).val ∧ (p 0).val < win0_6.index (pointOf (p 0)) (0 : Fin 3) * 1 + 1; omega
  | ⟨1, _⟩ => show win0_6.index (pointOf (p 0)) (1 : Fin 3) * 1 ≤ (p 1).val ∧ (p 1).val < win0_6.index (pointOf (p 0)) (1 : Fin 3) * 1 + 1; omega
  | ⟨2, _⟩ => show win0_6.index (pointOf (p 0)) (2 : Fin 3) * 1024 ≤ (p 2).val ∧ (p 2).val < win0_6.index (pointOf (p 0)) (2 : Fin 3) * 1024 + 1024; omega

include h0 h2 h3 in
/-- THE STATE'S ARRAY after the run is the updated state. -/
theorem final_state : (dats m 0 c).arrAt 5 cfg0.N = newState m c KP VV BETA :=
  (dats m 0 c).arrAt_eq_of_cover 5 (newState m c KP VV BETA) (fun t _ => flushed_state m c KP VV BETA h0 h2 h3 t) state_cover

include h0 h1 h2 h3 in
/-- THE READ-OUT'S ARRAY after the run is the read-out. -/
theorem final_read : (dats m 0 c).arrAt 6 cfg0.N = newRead m c KP QP VV BETA :=
  (dats m 0 c).arrAt_eq_of_cover 6 (newRead m c KP QP VV BETA) (fun t _ => flushed_read m c KP QP VV BETA h0 h1 h2 h3 t) read_cover

end Arrays

end Cert.KernelIdeal.Blocks

end
-- ==== Proof.HostPrefix.lean ====
/-
  What the region finds in the arrays its windows stage.

  Before the launch the kernel's program computes, by host operations, the key features kp = dpfp(x Wkᵀ + bk), the
  query features qp = dpfp(x Wqᵀ + bq), the values v = x Wvᵀ + bv and the write strength beta = 1 / (1 + exp(−(x Wbetaᵀ +
  bbeta))), each then given a middle unit axis: [64, 1024] → [64, 1, 1024] and [64, 1] → [64, 1, 1]. The reference
  computes the same four projections by the same operations in the same order, so each array the region finds is the
  reference's own stage of the arguments, reshaped; the projections are never opened. The state W is staged from the
  argument itself.
-/
import proofs.«154370_j68539088109957_2_alg».proof.Proof.Gen.KernelIdeal.Frame
import proofs.«154370_j68539088109957_2_alg».proof.Proof.Gen.ReferenceIdeal.Read

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The key features kp : [64, 1024], as the reference's stage of the arguments x, Wk, bk. -/
abbrev keys : S64x1024.Idx → EReal :=
  Cert.ReferenceIdeal.Read.val_main_v31 (F := Ideal) (m ((c : Thread nD τ).loc main_arg0)) (m ((c : Thread nD τ).loc main_arg4))
    (m ((c : Thread nD τ).loc main_arg5))

/-- The query features qp : [64, 1024], as the reference's stage of x, Wq, bq. -/
abbrev queries : S64x1024.Idx → EReal :=
  Cert.ReferenceIdeal.Read.val_main_v48 (F := Ideal) (m ((c : Thread nD τ).loc main_arg0)) (m ((c : Thread nD τ).loc main_arg2))
    (m ((c : Thread nD τ).loc main_arg3))

/-- The values v : [64, 1024], as the reference's stage of x, Wv, bv. -/
abbrev values : S64x1024.Idx → EReal :=
  Cert.ReferenceIdeal.Read.val_main_v14 (F := Ideal) (m ((c : Thread nD τ).loc main_arg0)) (m ((c : Thread nD τ).loc main_arg6))
    (m ((c : Thread nD τ).loc main_arg7))

/-- The write strength beta : [64, 1], as the reference's stage of x, Wbeta, bbeta. -/
abbrev gate : S64x1.Idx → EReal :=
  Cert.ReferenceIdeal.Read.val_main_v25 (F := Ideal) (m ((c : Thread nD τ).loc main_arg0)) (m ((c : Thread nD τ).loc main_arg10))
    (m ((c : Thread nD τ).loc main_arg11))

/-- Window 0's array: the key features with a middle unit axis. -/
theorem keys_array : (V m c main_v38 : S64x1x1024.Idx → EReal) = shapeCast S64x1x1024 (keys m c) shapeCasts_S64x1024_S64x1x1024 := by
  dsimp only [V, V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

/-- Window 1's array: the query features with a middle unit axis. -/
theorem queries_array : (V m c main_v39 : S64x1x1024.Idx → EReal) = shapeCast S64x1x1024 (queries m c) shapeCasts_S64x1024_S64x1x1024 := by
  dsimp only [V, V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

/-- Window 2's array: the values with a middle unit axis. -/
theorem values_array : (V m c main_v40 : S64x1x1024.Idx → EReal) = shapeCast S64x1x1024 (values m c) shapeCasts_S64x1024_S64x1x1024 := by
  dsimp only [V, V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

/-- Window 3's array: the write strength with a middle unit axis. -/
theorem gate_array : (V m c main_v41 : S64x1x1.Idx → EReal) = shapeCast S64x1x1 (gate m c) shapeCasts_S64x1_S64x1x1 := by
  dsimp only [V, V0]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

end Cert.KernelIdeal.HostPrefix

end
-- ==== Proof.RefValue.lean ====
/-
  The reference computes the delta-rule update and its read-out.

  Read one operation at a time, the reference's updated state at (b, i, j) is
  W[b, i, j] + (beta[b] · (v[b, i] − (0 + Σ_k W[b, k, i]) · kp[b, i])) · kp[b, j]: the strength is laid out as a
  [64, 1024, 1] column and the key features as a [64, 1, 1024] row before the two are broadcast against each other,
  and each broadcast re-reads the one entry it repeats. Its read-out at (b, i) is (0 + Σ_j W'[b, i, j]) · qp[b, i],
  the specification's product with its two factors exchanged. The projections kp, qp, v, beta stay closed: both
  programs compute them by the same host operations.
-/
import proofs.«154370_j68539088109957_2_alg».proof.Proof.Gen.ReferenceIdeal.Read
import proofs.«154370_j68539088109957_2_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.FastWeight

/-! ## Where each layout step of the outer product reads -/

theorem at_strength_col (b : Fin 64) (i j : Fin 1024) : idx_main_v39 (ix3 b i j) = ix3 b i (0 : Fin 1) :=
  funext fun a => Fin.ext (by match a with | ⟨0, _⟩ => rfl | ⟨1, _⟩ => rfl | ⟨2, _⟩ => rfl)

theorem at_strength (b : Fin 64) (i : Fin 1024) (u : Fin 1) : idx_main_v37 (ix3 b i u) = ix2 b i :=
  funext fun a => Fin.ext (by match a with | ⟨0, _⟩ => rfl | ⟨1, _⟩ => rfl)

theorem at_beta (b : Fin 64) (i : Fin 1024) : idx_main_v35 (ix2 b i) = ix2 b (0 : Fin 1) :=
  funext fun a => Fin.ext (by match a with | ⟨0, _⟩ => rfl | ⟨1, _⟩ => rfl)

theorem at_key_row (b : Fin 64) (i j : Fin 1024) : idx_main_v40 (ix3 b i j) = ix3 b (0 : Fin 1) j :=
  funext fun a => Fin.ext (by match a with | ⟨0, _⟩ => rfl | ⟨1, _⟩ => rfl | ⟨2, _⟩ => rfl)

theorem at_key (b : Fin 64) (u : Fin 1) (j : Fin 1024) : idx_main_v38 (ix3 b u j) = ix2 b j :=
  funext fun a => Fin.ext (by match a with | ⟨0, _⟩ => rfl | ⟨1, _⟩ => rfl)

theorem at_column (b : Fin 64) (i k : Fin 1024) : idx_main_v32 (ix2 b i) k = ix3 b k i :=
  funext fun a => Fin.ext (by match a with | ⟨0, _⟩ => rfl | ⟨1, _⟩ => rfl | ⟨2, _⟩ => rfl)

theorem at_row (b : Fin 64) (i k : Fin 1024) : idx_main_v49 (ix2 b i) k = ix3 b i k :=
  funext fun a => Fin.ext (by match a with | ⟨0, _⟩ => rfl | ⟨1, _⟩ => rfl | ⟨2, _⟩ => rfl)

/-! ## The two results -/

section

variable (x0 : (⟨S64x512, .f32⟩ : BufTy).Contents (Elt Ideal)) (x1 : (⟨S64x1024x1024, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S1024x512, .f32⟩ : BufTy).Contents (Elt Ideal)) (x7 : (⟨S1024, .f32⟩ : BufTy).Contents (Elt Ideal))
  (x10 : (⟨S1x512, .f32⟩ : BufTy).Contents (Elt Ideal)) (x11 : (⟨S1, .f32⟩ : BufTy).Contents (Elt Ideal))

/-- The reference's second result is the updated state of its own projections. -/
theorem updated_eq :
    val_main_v42 (F := Ideal) x0 x1 x4 x5 x6 x7 x10 x11
      = updated x1 (val_main_v31 (F := Ideal) x0 x4 x5) (val_main_v14 (F := Ideal) x0 x6 x7) (val_main_v25 (F := Ideal) x0 x10 x11) := by
  funext p
  obtain ⟨b, i, j, rfl⟩ : ∃ (b : Fin 64) (i j : Fin 1024), p = ix3 b i j := ⟨p 0, p 1, p 2, eq_ix3 p⟩
  rw [updated_ix3]
  unfold updatedAt strength
  simp only [val_main_v42_apply, val_main_v41_apply, val_main_v39_apply, val_main_v37_apply, val_main_v36_apply,
    val_main_v35_apply, val_main_v34_apply, val_main_v33_apply, val_main_v32_apply, val_main_v40_apply, val_main_v38_apply,
    val_main_cst_1_apply, at_strength_col, at_strength, at_beta, at_key_row, at_key, at_column,
    Ideal.addf_def, Ideal.mulf_def, Ideal.subf_def, Ideal.ofBits_def, Ideal.ofBits_zero_f32, zero_add]

/-- The reference's read-out, before its last projection, is the specification's: the two factors exchanged. -/
theorem readout_eq :
    val_main_v50 (F := Ideal) x0 x1 x2 x3 x4 x5 x6 x7 x10 x11
      = readout x1 (val_main_v31 (F := Ideal) x0 x4 x5) (val_main_v48 (F := Ideal) x0 x2 x3) (val_main_v14 (F := Ideal) x0 x6 x7)
          (val_main_v25 (F := Ideal) x0 x10 x11) := by
  funext p
  obtain ⟨b, i, rfl⟩ : ∃ (b : Fin 64) (i : Fin 1024), p = ix2 b i := ⟨p 0, p 1, eq_ix2 p⟩
  rw [readout_ix2]
  unfold readoutAt
  simp only [val_main_v50_apply, val_main_v49_apply, val_main_cst_2_apply, updated_eq, at_row, updated_ix3,
    Ideal.mulf_def, Ideal.ofBits_def, Ideal.ofBits_zero_f32, zero_add]
  exact mul_comm _ _

end

end Cert.ReferenceIdeal.RefValue

end
-- ==== Proof.LibMiddleUnitDrop.lean ====
/-
  A general layout lemma: a MIDDLE unit axis of a rank-3 shape dropped again.
-/
import Idealize.ShloMosaic.Lib.Pipeline.Value
import Idealize.ShloMosaic.Lib.ValueIdx

namespace Idealize.ShloMosaic.ValueIdx

variable {α : Type}

/-- An `[a, 1, b]` array cast to `[a, b]` reads, at `(i, j)`, the operand at `(i, 0, j)`: both indices have
    row-major position `i · b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.ValueIdx
-- ==== Proof.Results.lean ====
/-
  The kernel's two results, as the reference's own stages of the arguments.

  The second result is the state's array after the run: the updated state of the launched W and the four
  projections, which is what the reference's second result is. The first result is computed after the region by
  the host: the read-out's array loses its middle unit axis, is multiplied into Woᵀ and shifted by bo — the same
  three steps, on the same operands, by which the reference finishes; so it is enough that the array with its unit
  axis dropped is the reference's read-out, index by index.
-/
import proofs.«154370_j68539088109957_2_alg».proof.Proof.Blocks
import proofs.«154370_j68539088109957_2_alg».proof.Proof.HostPrefix
import proofs.«154370_j68539088109957_2_alg».proof.Proof.RefValue
import proofs.«154370_j68539088109957_2_alg».proof.Proof.LibMiddleUnitDrop
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem
open Idealize.ShloMosaic.StableHlo Idealize.ShloMosaic.ValueIdx
open Cert.FastWeight Cert.KernelIdeal.Blocks Cert.KernelIdeal.HostPrefix

variable (m : (ℓ : Loc nD τ sig) → Buf (Elt Ideal) ℓ)

/-- The state's array after the run is the reference's second result, of the same arguments. -/
theorem state_result (c : Dev nD) :
    (dats m 0 c).arrAt 5 cfg0.N
      = Cert.ReferenceIdeal.Read.val_main_v42 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  rw [Cert.ReferenceIdeal.RefValue.updated_eq]
  exact final_state m c (keys m c) (values m c) (gate m c) (keys_array m c) (values_array m c) (gate_array m c)

/-- The read-out's array with its middle unit axis dropped is the reference's read-out before the last projection. -/
theorem read_flat (c : Dev nD) :
    shapeCast S64x1024 ((dats m 0 c).arrAt 6 cfg0.N) shapeCasts_S64x1x1024_S64x1024
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  rw [Cert.ReferenceIdeal.RefValue.readout_eq,
    final_read m c (keys m c) (queries m c) (values m c) (gate m c) (keys_array m c) (queries_array m c) (values_array m c) (gate_array m c)]
  funext p
  obtain ⟨b, i, rfl⟩ : ∃ (b : Fin 64) (i : Fin 1024), p = ix2 b i := ⟨p 0, p 1, eq_ix2 p⟩
  exact shapeCast_a1b_ab_apply _ _ b i

/-- The host's last three steps, the same in both programs: multiply into Woᵀ, add bo. -/
theorem out_result (c : Dev nD) :
    Pipeline.afterTail₀ cfgs (dats m) 0 (V0 m) [hostOps1] c main_v48
      = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v48) = _
  after_results
  unfold Cert.ReferenceIdeal.Read.val_main_v55 Cert.ReferenceIdeal.Read.val_main_v52 Cert.ReferenceIdeal.Read.val_main_v54
    Cert.ReferenceIdeal.Read.val_main_v53 Cert.ReferenceIdeal.Read.val_main_v51
  refine congrArg₂ addf (congrArg₂ (Host.dotGeneral dot_S64x1024_S1024x512_S64x512_1_0_0_1_n_n none) ?_ ?_) ?_
  · show shapeCast S64x1024 (Pipeline.withArrays spec0 c (V0 m c) (fun w => (dats m 0 c).arrAt w cfg0.N)
        (Proc.devRef .tc (Pipeline.arrRef spec0 6))) shapeCasts_S64x1x1024_S64x1024 = _
    rw [Pipeline.withArrays_arr spec0 launch0.win.arr_inj]
    exact read_flat m c
  · rw [Pipeline.withArrays_of_ne _ c (V0 m c) _ main_arg8 (by exact (by decide : ∀ w, Pipeline.arrRef spec0 w ≠ main_arg8))]
    show transpose S1024x512 [1, 0] (V m c main_arg8) transposes_S512x1024_S1024x512_1_0 = _
    rw [V_main_arg8]
  · rw [Pipeline.withArrays_of_ne _ c (V0 m c) _ main_arg9 (by exact (by decide : ∀ w, Pipeline.arrRef spec0 w ≠ main_arg9))]
    show broadcastInDim S64x512 ![0, 1] bcast_S1x512_S64x512_0_1 (broadcastInDim S1x512 ![1] bcast_S512_S1x512_1 (V m c main_arg9)) = _
    rw [V_main_arg9]

end Cert.KernelIdeal.Results

end
-- ==== Proof.lean ====
/-
  A delta-rule fast-weight cell (DPFP features): the Pallas kernel against its jnp reference, over the extended reals.

  Both programs first compute, by the same host operations, the query, key and value projections of x, the write
  strength beta = sigmoid(x Wbetaᵀ + bbeta), and the feature maps kp = dpfp(k), qp = dpfp(q). Then, per batch entry b,

    d[b, i]     = beta[b] · (v[b, i] − (Σ_k W[b, k, i]) · kp[b, i])
    W'[b, i, j] = W[b, i, j] + d[b, i] · kp[b, j]
    r[b, i]     = Σ_j W'[b, i, j]   times   qp[b, i]
    out         = r Woᵀ + bo.

  The kernel does the middle three lines on the chip, one batch entry per grid point, and writes qp · rowsum where the
  reference writes rowsum · qp; the rest is the same text in both programs. So the two results are equal once (i) each
  block the kernel stages is the batch entry's slice of the arrays the host prepared, (ii) the body's reshapes,
  transposes, broadcasts and its two reductions are read index by index, (iii) the 64 blocks tile the two output
  arrays, and (iv) the product of two extended reals commutes. No step needs the inputs to be finite: the precondition
  is used only where the generated frames ask for it.

  The modules: Spec (the three formulas as functions of index), Payload (the body at an index), Blocks (from blocks to
  whole arrays), HostPrefix (what the region finds), RefValue (the reference is the specification), Results (the
  kernel's two results as the reference's stages), and the claims below.
-/
import proofs.«154370_j68539088109957_2_alg».proof.Defs
import proofs.«154370_j68539088109957_2_alg».proof.Proof.Gen.Kernel
import proofs.«154370_j68539088109957_2_alg».proof.Proof.Gen.Kernel.Skeleton
import proofs.«154370_j68539088109957_2_alg».proof.Proof.Gen.Kernel.Launch
import proofs.«154370_j68539088109957_2_alg».proof.Proof.Gen.Kernel.Points
import proofs.«154370_j68539088109957_2_alg».proof.Proof.Gen.Kernel.Frame
import proofs.«154370_j68539088109957_2_alg».proof.Proof.Gen.KernelIdeal
import proofs.«154370_j68539088109957_2_alg».proof.Proof.Gen.KernelIdeal.Skeleton
import proofs.«154370_j68539088109957_2_alg».proof.Proof.Gen.KernelIdeal.Launch
import proofs.«154370_j68539088109957_2_alg».proof.Proof.Gen.KernelIdeal.Points
import proofs.«154370_j68539088109957_2_alg».proof.Proof.Gen.KernelIdeal.Frame
import proofs.«154370_j68539088109957_2_alg».proof.Proof.Gen.ReferenceIdeal
import proofs.«154370_j68539088109957_2_alg».proof.Proof.Gen.ReferenceIdeal.Run
import proofs.«154370_j68539088109957_2_alg».proof.Proof.Gen.ReferenceIdeal.Read
import proofs.«154370_j68539088109957_2_alg».proof.Proof.Gen.Pre_finite_inputs
import proofs.«154370_j68539088109957_2_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its generated run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing in this kernel. -/
theorem preserves : Cert.preserves_Kernel_KernelIdeal := trivial

/-- At the extended reals both programs end with the reference's two stages of the shared arguments: out = r Woᵀ + bo
    and the updated state W'. -/
theorem algebraic : Cert.algebraic_KernelIdeal_ReferenceIdeal := by
  intro m ρ m' ρ' _ hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c =>
      ⟨((h c).2 Cert.KernelIdeal.main_v48 (Pipeline.mem_restRefs_of Cert.KernelIdeal.main_v48 (by decide) (by decide))).trans
          (Cert.KernelIdeal.Results.out_result m c),
        ((h c).1 5).trans (Cert.KernelIdeal.Results.state_result m c),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      ((h c).1 4).trans ((((Cert.KernelIdeal.Gen.dats m 0 c).arrAt_in 4 rfl _).trans ((Cert.KernelIdeal.Gen.A_eq m c 4).trans (Cert.KernelIdeal.Gen.V_main_arg1 m c)))),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      (((h c).2 Cert.KernelIdeal.main_arg7 (Pipeline.mem_restRefs_of Cert.KernelIdeal.main_arg7 (by decide) (by decide))).trans (Cert.KernelIdeal.Gen.W_main_arg7 m (Cert.KernelIdeal.Gen.dats m) c)),
      (((h c).2 Cert.KernelIdeal.main_arg8 (Pipeline.mem_restRefs_of Cert.KernelIdeal.main_arg8 (by decide) (by decide))).trans (Cert.KernelIdeal.Gen.W_main_arg8 m (Cert.KernelIdeal.Gen.dats m) c)),
      (((h c).2 Cert.KernelIdeal.main_arg9 (Pipeline.mem_restRefs_of Cert.KernelIdeal.main_arg9 (by decide) (by decide))).trans (Cert.KernelIdeal.Gen.W_main_arg9 m (Cert.KernelIdeal.Gen.dats m) c)),
      (((h c).2 Cert.KernelIdeal.main_arg10 (Pipeline.mem_restRefs_of Cert.KernelIdeal.main_arg10 (by decide) (by decide))).trans (Cert.KernelIdeal.Gen.W_main_arg10 m (Cert.KernelIdeal.Gen.dats m) c)),
      (((h c).2 Cert.KernelIdeal.main_arg11 (Pipeline.mem_restRefs_of Cert.KernelIdeal.main_arg11 (by decide) (by decide))).trans (Cert.KernelIdeal.Gen.W_main_arg11 m (Cert.KernelIdeal.Gen.dats m) c))⟩)
      (Cert.KernelIdeal.Gen.run_main m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    · rw [Cert.ReferenceIdeal.Read.val_main_v42_eq, (hagree c).1, (hagree c).2.1, (hagree c).2.2.2.2.1, (hagree c).2.2.2.2.2.1, (hagree c).2.2.2.2.2.2.1, (hagree c).2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
